-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S16x256 : Shape := ⟨2, ![16, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S16x256 .f32) (main_arg8 : FVec F S256 .f32) (main_v33 : IVec S_ 1) : IVec S_ 1 :=
  let main_v34 : FVec F S16x256 .f32 := Host.absf main_arg7
  let main_cst_12 : FVec F S_ .f32 := constant S_ .f32 0x7F800000#32
  let main_v35 : FVec F S16x256 .f32 := broadcastInDim S16x256 ![] bcast_S_S16x256 main_cst_12
  let main_v36 : IVec S16x256 1 := cmpf .olt main_v34 main_v35
  let main_c_13 : IVec S_ 1 := constantI S_ 1 1#1
  let main_v37 : IVec S_ 1 := (fun x v => Host.reduce IntOp.andi x v reducesTo_S16x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S128 .f32) (main_arg5 : FVec F S128x16 .f32) (main_arg6 : FVec F S16 .f32) (main_arg7 : FVec F S16x256 .f32) (main_arg8 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg5
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S10000x256 .f32) (main_arg1 : FVec F S10000x10000 .f32) (main_arg2 : FVec F S10000x10000 .f32) (main_arg3 : FVec F S256x128 .f32) (main_arg4 : FVec F S128 .f32) (main_arg5 : FVec F S128x16 .f32) (main_arg6 : FVec F S16 .f32) (main_arg7 : FVec F S16x256 .f32) (main_arg8 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_v13 main_v16
-- ==== Kernel.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S16x256 : Shape := ⟨2, ![16, 256]⟩
abbrev S256 : Shape := ⟨1, ![256]⟩
abbrev S10000x128 : Shape := ⟨2, ![10000, 128]⟩
abbrev S2000x256 : Shape := ⟨2, ![2000, 256]⟩
abbrev S2000x128 : Shape := ⟨2, ![2000, 128]⟩
abbrev S1x128 : Shape := ⟨2, ![1, 128]⟩
abbrev S10000x16 : Shape := ⟨2, ![10000, 16]⟩
abbrev S400x10000 : Shape := ⟨2, ![400, 10000]⟩
abbrev S400x16 : Shape := ⟨2, ![400, 16]⟩
abbrev S400x128 : Shape := ⟨2, ![400, 128]⟩
abbrev S1x16 : Shape := ⟨2, ![1, 16]⟩
abbrev S400x256 : Shape := ⟨2, ![400, 256]⟩
abbrev S1x256 : Shape := ⟨2, ![1, 256]⟩

abbrev nBuf : Space → Nat
  | .hbm => 20
  | .vmem => 39
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000x10000, .f32⟩
  | .hbm, ⟨3, _⟩ => ⟨S256x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S16x256, .f32⟩
  | .hbm, ⟨8, _⟩ => ⟨S256, .f32⟩
  | .hbm, ⟨9, _⟩ => ⟨S10000x128, .f32⟩
  | .hbm, ⟨10, _⟩ => ⟨S1x128, .f32⟩
  | .hbm, ⟨11, _⟩ => ⟨S10000x16, .f32⟩
  | .hbm, ⟨12, _⟩ => ⟨S1x16, .f32⟩
  | .hbm, ⟨13, _⟩ => ⟨S10000x256, .f32⟩
  | .hbm, ⟨14, _⟩ => ⟨S1x256, .f32⟩
  | .hbm, ⟨15, _⟩ => ⟨S10000x128, .f32⟩
  | .hbm, ⟨16, _⟩ => ⟨S1x128, .f32⟩
  | .hbm, ⟨17, _⟩ => ⟨S10000x16, .f32⟩
  | .hbm, ⟨18, _⟩ => ⟨S1x16, .f32⟩
  | .hbm, ⟨19, _⟩ => ⟨S10000x16, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S400x10000, .f32⟩
  | .local _ .vmem, ⟨6, _⟩ => ⟨S400x10000, .f32⟩
  | .local _ .vmem, ⟨7, _⟩ => ⟨S10000x128, .f32⟩
  | .local _ .vmem, ⟨8, _⟩ => ⟨S1x128, .f32⟩
  | .local _ .vmem, ⟨9, _⟩ => ⟨S128x16, .f32⟩
  | .local _ .vmem, ⟨10, _⟩ => ⟨S400x16, .f32⟩
  | .local _ .vmem, ⟨11, _⟩ => ⟨S400x16, .f32⟩
  | .local _ .vmem, ⟨12, _⟩ => ⟨S400x10000, .f32⟩
  | .local _ .vmem, ⟨13, _⟩ => ⟨S400x10000, .f32⟩
  | .local _ .vmem, ⟨14, _⟩ => ⟨S10000x16, .f32⟩
  | .local _ .vmem, ⟨15, _⟩ => ⟨S1x16, .f32⟩
  | .local _ .vmem, ⟨16, _⟩ => ⟨S16x256, .f32⟩
  | .local _ .vmem, ⟨17, _⟩ => ⟨S400x256, .f32⟩
  | .local _ .vmem, ⟨18, _⟩ => ⟨S400x256, .f32⟩
  | .local _ .vmem, ⟨19, _⟩ => ⟨S400x10000, .f32⟩
  | .local _ .vmem, ⟨20, _⟩ => ⟨S400x10000, .f32⟩
  | .local _ .vmem, ⟨21, _⟩ => ⟨S10000x256, .f32⟩
  | .local _ .vmem, ⟨22, _⟩ => ⟨S1x256, .f32⟩
  | .local _ .vmem, ⟨23, _⟩ => ⟨S256x128, .f32⟩
  | .local _ .vmem, ⟨24, _⟩ => ⟨S400x128, .f32⟩
  | .local _ .vmem, ⟨25, _⟩ => ⟨S400x128, .f32⟩
  | .local _ .vmem, ⟨26, _⟩ => ⟨S400x10000, .f32⟩
  | .local _ .vmem, ⟨27, _⟩ => ⟨S400x10000, .f32⟩
  | .local _ .vmem, ⟨28, _⟩ => ⟨S10000x128, .f32⟩
  | .local _ .vmem, ⟨29, _⟩ => ⟨S1x128, .f32⟩
  | .local _ .vmem, ⟨30, _⟩ => ⟨S128x16, .f32⟩
  | .local _ .vmem, ⟨31, _⟩ => ⟨S400x16, .f32⟩
  | .local _ .vmem, ⟨32, _⟩ => ⟨S400x16, .f32⟩
  | .local _ .vmem, ⟨33, _⟩ => ⟨S400x10000, .f32⟩
  | .local _ .vmem, ⟨34, _⟩ => ⟨S400x10000, .f32⟩
  | .local _ .vmem, ⟨35, _⟩ => ⟨S10000x16, .f32⟩
  | .local _ .vmem, ⟨36, _⟩ => ⟨S1x16, .f32⟩
  | .local _ .vmem, ⟨37, _⟩ => ⟨S400x16, .f32⟩
  | .local _ .vmem, ⟨38, _⟩ => ⟨S400x16, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem3_1 : DmaSem sig := 38

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S400x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S400x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x16_S128x16_0_0 : ∀ a, (![0, 0] : Fin 2 → Nat) a + S128x16.size a ≤ S128x16.size a
  h_S128x16 : 0 < S128x16.numel
  inb_S400x16_S400x16_0_0 : ∀ a, (![0, 0] : Fin 2 → Nat) a + S400x16.size a ≤ S400x16.size a
  h_S400x16 : 0 < S400x16.numel
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x256_S16x256_0_0 : ∀ a, (![0, 0] : Fin 2 → Nat) a + S16x256.size a ≤ S16x256.size a
  h_S16x256 : 0 < S16x256.numel
  inb_S400x256_S400x256_0_0 : ∀ a, (![0, 0] : Fin 2 → Nat) a + S400x256.size a ≤ S400x256.size a
  h_S400x256 : 0 < S400x256.numel
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x128_S400x128_0_0 : ∀ a, (![0, 0] : Fin 2 → Nat) a + S400x128.size a ≤ S400x128.size a
  h_S400x128 : 0 < S400x128.numel
  dot_S2000x256_S256x128_S2000x128_1_0_0_1_n_n_wf : DotDims.WF S2000x256 S256x128 S2000x128 [1] [0] [0] [1] [] []
  dot_S400x10000_S10000x128_S400x128_1_0_0_1_n_n_wf : DotDims.WF S400x10000 S10000x128 S400x128 [1] [0] [0] [1] [] []
  dot_S400x128_S128x16_S400x16_1_0_0_1_n_n_wf : DotDims.WF S400x128 S128x16 S400x16 [1] [0] [0] [1] [] []
  dot_S400x10000_S10000x16_S400x16_1_0_0_1_n_n_wf : DotDims.WF S400x10000 S10000x16 S400x16 [1] [0] [0] [1] [] []
  dot_S400x16_S16x256_S400x256_1_0_0_1_n_n_wf : DotDims.WF S400x16 S16x256 S400x256 [1] [0] [0] [1] [] []
  dot_S400x10000_S10000x256_S400x256_1_0_0_1_n_n_wf : DotDims.WF S400x10000 S10000x256 S400x256 [1] [0] [0] [1] [] []
  dot_S400x256_S256x128_S400x128_1_0_0_1_n_n_wf : DotDims.WF S400x256 S256x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x16.size a ≤ S128x16.size a
  hwx1_3 : ∀ i : grid1.Coords, EltTy.bits .f32 = 32 ∨ (Rect.block (s := S128x16) S128x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x256.size a ≤ S16x256.size a
  hwx2_3 : ∀ i : grid2.Coords, EltTy.bits .f32 = 32 ∨ (Rect.block (s := S16x256) S16x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x256.size a ≤ S10000x256.size a
  hwx2_4 : ∀ i : grid2.Coords, EltTy.bits .f32 = 32 ∨ (Rect.block (s := S10000x256) S400x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .f32 = 32 ∨ (Rect.block (s := S10000x256) S10000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x128.size a ≤ S10000x128.size a
  hwx3_4 : ∀ i : grid3.Coords, EltTy.bits .f32 = 32 ∨ (Rect.block (s := S10000x128) S400x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .f32 = 32 ∨ (Rect.block (s := S10000x10000) S400x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .f32 = 32 ∨ (Rect.block (s := S10000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x16.size a ≤ S128x16.size a
  hwx4_3 : ∀ i : grid4.Coords, EltTy.bits .f32 = 32 ∨ (Rect.block (s := S128x16) S128x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x16.size a ≤ S10000x16.size a
  hwx4_4 : ∀ i : grid4.Coords, EltTy.bits .f32 = 32 ∨ (Rect.block (s := S10000x16) S400x16.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .f32 = 32 ∨ (Rect.block (s := S10000x10000) S400x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x16.size a ≤ S10000x16.size a
  hwx5_1 : ∀ i : grid5.Coords, EltTy.bits .f32 = 32 ∨ (Rect.block (s := S10000x16) S10000x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x16.size a ≤ S10000x16.size a
  hwx5_3 : ∀ i : grid5.Coords, EltTy.bits .f32 = 32 ∨ (Rect.block (s := S10000x16) S400x16.size (cc5_transform_3 i) (hinb5_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x16_S400x16_1_0_0_1_n_n : DotDims S400x128 S128x16 S400x16 where
  lhsContracting := [1]
  rhsContracting := [0]
  lhsNonContracting := [0]
  rhsNonContracting := [1]
  lhsBatch := []
  rhsBatch := []
  wf := dot_S400x128_S128x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x256_S400x256_1_0_0_1_n_n : DotDims S400x16 S16x256 S400x256 where
  lhsContracting := [1]
  rhsContracting := [0]
  lhsNonContracting := [0]
  rhsNonContracting := [1]
  lhsBatch := []
  rhsBatch := []
  wf := dot_S400x16_S16x256_S400x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S400x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S16x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S400x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S400x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg2) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S128x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v8) S400x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_arg2) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S10000x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v9) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v10) S400x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S16x256 : Shape := ⟨2, ![16, 256]⟩
abbrev S256 : Shape := ⟨1, ![256]⟩
abbrev S10000x128 : Shape := ⟨2, ![10000, 128]⟩
abbrev S1x128 : Shape := ⟨2, ![1, 128]⟩
abbrev S_ : Shape := ⟨0, ![]⟩
abbrev S10000x16 : Shape := ⟨2, ![10000, 16]⟩
abbrev S1x16 : Shape := ⟨2, ![1, 16]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000x10000, .f32⟩
  | .hbm, ⟨3, _⟩ => ⟨S256x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S16x256, .f32⟩
  | .hbm, ⟨8, _⟩ => ⟨S256, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S10000x16, .f32⟩
  | .hbm, ⟨18, _⟩ => ⟨S10000x16, .f32⟩
  | .hbm, ⟨19, _⟩ => ⟨S1x16, .f32⟩
  | .hbm, ⟨20, _⟩ => ⟨S10000x16, .f32⟩
  | .hbm, ⟨21, _⟩ => ⟨S10000x16, .f32⟩
  | .hbm, ⟨22, _⟩ => ⟨S_, .f32⟩
  | .hbm, ⟨23, _⟩ => ⟨S10000x16, .f32⟩
  | .hbm, ⟨24, _⟩ => ⟨S10000x16, .f32⟩
  | .hbm, ⟨25, _⟩ => ⟨S10000x256, .f32⟩
  | .hbm, ⟨26, _⟩ => ⟨S10000x256, .f32⟩
  | .hbm, ⟨27, _⟩ => ⟨S1x256, .f32⟩
  | .hbm, ⟨28, _⟩ => ⟨S10000x256, .f32⟩
  | .hbm, ⟨29, _⟩ => ⟨S10000x256, .f32⟩
  | .hbm, ⟨30, _⟩ => ⟨S_, .f32⟩
  | .hbm, ⟨31, _⟩ => ⟨S10000x256, .f32⟩
  | .hbm, ⟨32, _⟩ => ⟨S10000x256, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .f32⟩
  | .hbm, ⟨41, _⟩ => ⟨S10000x16, .f32⟩
  | .hbm, ⟨42, _⟩ => ⟨S10000x16, .f32⟩
  | .hbm, ⟨43, _⟩ => ⟨S1x16, .f32⟩
  | .hbm, ⟨44, _⟩ => ⟨S10000x16, .f32⟩
  | .hbm, ⟨45, _⟩ => ⟨S10000x16, .f32⟩
  | .hbm, ⟨46, _⟩ => ⟨S_, .f32⟩
  | .hbm, ⟨47, _⟩ => ⟨S10000x16, .f32⟩
  | .hbm, ⟨48, _⟩ => ⟨S10000x16, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call3_cst : Ref sig .tc := ⟨.hbm, 38, rfl⟩
abbrev main_call3_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call4_cst : Ref sig .tc := ⟨.hbm, 46, rfl⟩
abbrev main_call4_v0 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x256_S10000x256_1_0_0_1_n_n_wf : DotDims.WF S10000x16 S16x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x256_S10000x256_1_0_0_1_n_n : DotDims S10000x16 S16x256 S10000x256 where
  lhsContracting := [1]
  rhsContracting := [0]
  lhsNonContracting := [0]
  rhsNonContracting := [1]
  lhsBatch := []
  rhsBatch := []
  wf := dot_S10000x16_S16x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KernelRun.lean ====
/-
  The idealized kernel's run with its result buffer read.

  The program is six kernel regions with a vector reshape between consecutive ones. The frame certificate of this program
  follows the buffer contents through those eleven segments: `W11 m ρ c` is what core `c`'s buffers hold after the last
  region, as a function of the launch memory `m`. Launching the same segments with the same thread states and reading the
  result buffer, beside the nine argument buffers, off the last thread state gives: every weakly fair execution ends with
  the result buffer at `W11 m ρ c` there and the arguments as launched.
-/
import proofs.«146525_g77695958385290_cont_9to1_m_733_3_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last segment
    boundary's contents, and each argument buffer as launched. -/
theorem run_out : θ_run defs (onTc (τ := τ) (main (F := F))) ⟨m, fun _ => 0, ρ⟩ (fun r => ∀ c : Dev nD,
      r.2.mem ((c.tc : Thread nD τ).loc main_v10) = W11 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v10 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Val

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Region0.lean ====
/-
  What kernel region 0 leaves in its output array, for any contents `V` of the buffers at the region's entry.

  The body computes the matrix product `x w` on a strip of 2000 rows of the features `x` (256 columns) with the whole
  weight matrix `w` (256 × 128).
  The region's grid has one axis; point `t` works on the strip of rows `t · rows .. t · rows + rows − 1` of the row-blocked
  operand and of the output, and on the whole of every other operand. The body's stored value is a function of the loaded
  blocks (its casts to bf16 are the identity on extended reals, its matmuls into a zero accumulator are matrix products),
  so what point `t` writes back is strip `t` of ONE function of the entry arrays; a row of that function depends only on
  the same row of the row-blocked operand. The strips tile the output array, so the array ends as that function.
-/
import proofs.«146525_g77695958385290_cont_9to1_m_733_3_alg».proof.Proof.Gen.KernelIdeal.Frame
import proofs.«146525_g77695958385290_cont_9to1_m_733_3_alg».proof.Proof.LibDense

set_option maxRecDepth 16384

noncomputable section

open scoped BigOperators

namespace Cert.KernelIdeal.Val

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

theorem trunc_id0 {s : Shape} (a : FVec Ideal s .f32) (h : FTy.bits .bf16 < FTy.bits .f32) :
    (truncf .bf16 a h : FVec Ideal s .bf16) = a := rfl

/-- The body's stored value, as a function of the loaded blocks. -/
theorem pay0_eq (x0 : Vec Ideal S2000x256 .f32) (x1 : Vec Ideal S256x128 .f32) :
    k0_pay1 (F := Ideal) x0 x1 = mm x0 x1 := by
  unfold k0_pay1
  dsimp only
  rw [trunc_id0, trunc_id0]
  rw [matmul_zero_eq_mm dot_S2000x256_S256x128_S2000x128_1_0_0_1_n_n rfl rfl rfl rfl rfl rfl]

theorem hz0 : (![0, 0] : Fin 2 → Nat) = fun _ => 0 := funext fun a => by fin_cases a <;> rfl

variable (V : (c : Dev nD) → (b : Ref sig .tc) → Buf (Elt Ideal) ((c : Thread nD τ).loc b))

/-- The block indices over the grid: the features and the output move with the point along the rows, the weights stay
    whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is strip `t` of the product of the entry arrays. -/
theorem flushed0 (c : Dev nD) (t : Fin cfg0.N) :
    (dat0 V c).flushed 2 t = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero hz0]
  simp only [View.ld_unit_zero (S := S2000x256) hz0, View.ld_unit_zero (S := S256x128) hz0]
  rw [pay0_eq]
  funext j
  obtain ⟨p, q, rfl⟩ : ∃ (p : Fin 2000) (q : Fin 128), j = ix2 p q := ⟨j 0, j 1, eq_ix2 j⟩
  obtain ⟨e00, e01, e10, e11, e20, e21⟩ := idx_facts0 t
  have ht : t.val < 5 := lt_of_lt_of_eq t.isLt N_0
  have hW : iblk0 V c 1 t = V c main_arg3 := by
    funext y
    show V c main_arg3 (((cfg0.win 1).blk t).view.emb y) = V c main_arg3 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  rw [hW]
  have hemb : ((View.whole main_v0).slice ((win0 2).rect t)).emb (ix2 p q)
      = ix2 (⟨t.val * 2000 + p.val, by omega⟩ : Fin 10000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show mm (iblk0 V c 0 t) (V c main_arg3) (ix2 p q)
    = mm (V c main_arg0) (V c main_arg3) (((View.whole main_v0).slice ((win0 2).rect t)).emb (ix2 p q))
  rw [hemb]
  refine mm_rows (V c main_arg0) (iblk0 V c 0 t) (V c main_arg3) _ p (fun k => ?_) q
  show V c main_arg0 (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 256 + 1 * k.val = k.val; omega

/-- An index of the output array is in point `t`'s strip iff its row is. -/
theorem mem_blk0 (t : Fin cfg0.N) (i : S10000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- Row `r` is in the strip of point `r / 2000`. -/
theorem cover0 (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 5 := N_0
  obtain ⟨t, ht⟩ : ∃ t : Fin cfg0.N, t.val = (i 0).val / 2000 := ⟨⟨(i 0).val / 2000, by rw [hN]; omega⟩, rfl⟩
  obtain ⟨-, -, -, -, e20, e21⟩ := idx_facts0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The array region 0 leaves: the product of the features and the first layer's weights. -/
theorem region0 (c : Dev nD) :
    (dat0 V c).arrAt 2 cfg0.N = mm (V c main_arg0) (V c main_arg3) :=
  (dat0 V c).arrAt_eq_of_cover 2 _ (fun t _ => flushed0 V c t) (cover0)

end Cert.KernelIdeal.Val

end
-- ==== Proof.Region1.lean ====
/-
  What kernel region 1 leaves in its output array, for any contents `V` of the buffers at the region's entry.

  The body computes `max (a s + b, 0) w` on a strip of 400 rows of the adjacency `a`: the rectified affine layer of the
  incoming features `s` (128 columns) with the one-row bias `b`, times the next layer's weights `w` (128 × 16).
  The region's grid has one axis; point `t` works on the strip of rows `t · rows .. t · rows + rows − 1` of the row-blocked
  operand and of the output, and on the whole of every other operand. The body's stored value is a function of the loaded
  blocks (its casts to bf16 are the identity on extended reals, its matmuls into a zero accumulator are matrix products),
  so what point `t` writes back is strip `t` of ONE function of the entry arrays; a row of that function depends only on
  the same row of the row-blocked operand. The strips tile the output array, so the array ends as that function.
-/
import proofs.«146525_g77695958385290_cont_9to1_m_733_3_alg».proof.Proof.Gen.KernelIdeal.Frame
import proofs.«146525_g77695958385290_cont_9to1_m_733_3_alg».proof.Proof.LibDense

set_option maxRecDepth 16384

noncomputable section

open scoped BigOperators

namespace Cert.KernelIdeal.Val

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

theorem trunc_id1 {s : Shape} (a : FVec Ideal s .f32) (h : FTy.bits .bf16 < FTy.bits .f32) :
    (truncf .bf16 a h : FVec Ideal s .bf16) = a := rfl

/-- The body's stored value, as a function of the loaded blocks. -/
theorem pay1_eq (x0 : Vec Ideal S400x10000 .f32) (x1 : Vec Ideal S10000x128 .f32) (x2 : Vec Ideal S1x128 .f32)
    (x3 : Vec Ideal S128x16 .f32) : k1_pay1 (F := Ideal) x0 x1 x2 x3 = mm (act x0 x1 x2) x3 := by
  unfold k1_pay1
  dsimp only
  rw [shapeCast_self, shapeCast_self]
  rw [trunc_id1, trunc_id1, trunc_id1, trunc_id1]
  rw [matmul_zero_eq_mm dot_S400x10000_S10000x128_S400x128_1_0_0_1_n_n rfl rfl rfl rfl rfl rfl, vecReluBias,
    matmul_zero_eq_mm dot_S400x128_S128x16_S400x16_1_0_0_1_n_n rfl rfl rfl rfl rfl rfl]
  rfl

theorem hz1 : (![0, 0] : Fin 2 → Nat) = fun _ => 0 := funext fun a => by fin_cases a <;> rfl

variable (V : (c : Dev nD) → (b : Ref sig .tc) → Buf (Elt Ideal) ((c : Thread nD τ).loc b))

/-- The block indices over the grid: the adjacency and the output move with the point along the rows, the other
    operands stay whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is strip `t` of the layer of the entry arrays. -/
theorem flushed1 (c : Dev nD) (t : Fin cfg1.N) :
    (dat1 V c).flushed 4 t = ((cfg1.win 4).blk t).view.read (Elt Ideal)
      (mm (act (V c main_arg1) (V c main_v0) (V c main_v1)) (V c main_arg5)) := by
  show (cfg1.win 4).cut (grid1.coords t) ((dat1 V c).after 4 t) = _
  rw [after1_4]
  unfold out1_4
  rw [View.canon_unit_zero hz1]
  simp only [View.ld_unit_zero (S := S400x10000) hz1, View.ld_unit_zero (S := S10000x128) hz1,
    View.ld_unit_zero (S := S1x128) hz1, View.ld_unit_zero (S := S128x16) hz1]
  rw [pay1_eq]
  funext j
  obtain ⟨p, q, rfl⟩ : ∃ (p : Fin 400) (q : Fin 16), j = ix2 p q := ⟨j 0, j 1, eq_ix2 j⟩
  obtain ⟨e00, e01, e10, e11, e20, e21, e30, e31, e40, e41⟩ := idx_facts1 t
  have ht : t.val < 25 := lt_of_lt_of_eq t.isLt N_1
  have hS : iblk1 V c 1 t = V c main_v0 := by
    funext y
    show V c main_v0 (((cfg1.win 1).blk t).view.emb y) = V c main_v0 y
    refine congrArg _ (funext fun a => Fin.ext ?_)
    match a with
    | ⟨0, _⟩ => show win1_1.index t (0 : Fin 2) * 10000 + 1 * (y 0).val = (y 0).val; omega
    | ⟨1, _⟩ => show win1_1.index t (1 : Fin 2) * 128 + 1 * (y 1).val = (y 1).val; omega
  have hb : iblk1 V c 2 t = V c main_v1 := by
    funext y
    show V c main_v1 (((cfg1.win 2).blk t).view.emb y) = V c main_v1 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  have hW : iblk1 V c 3 t = V c main_arg5 := by
    funext y
    show V c main_arg5 (((cfg1.win 3).blk t).view.emb y) = V c main_arg5 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 16 + 1 * (y 1).val = (y 1).val; omega
  rw [hS, hb, hW]
  have hemb : ((View.whole main_v2).slice ((win1 4).rect t)).emb (ix2 p q)
      = ix2 (⟨t.val * 400 + p.val, by omega⟩ : Fin 10000) q := by
    funext a; apply Fin.ext
    match a with
    | ⟨0, _⟩ => show win1_4.index t (0 : Fin 2) * 400 + 1 * p.val = t.val * 400 + p.val; omega
    | ⟨1, _⟩ => show win1_4.index t (1 : Fin 2) * 16 + 1 * q.val = q.val; omega
  show mm (act (iblk1 V c 0 t) (V c main_v0) (V c main_v1)) (V c main_arg5) (ix2 p q)
    = mm (act (V c main_arg1) (V c main_v0) (V c main_v1)) (V c main_arg5)
        (((View.whole main_v2).slice ((win1 4).rect t)).emb (ix2 p q))
  rw [hemb]
  refine mm_act_rows (V c main_arg1) (iblk1 V c 0 t) (V c main_v0) (V c main_v1) (V c main_arg5) _ p (fun k => ?_) q
  show V c main_arg1 (((cfg1.win 0).blk t).view.emb (ix2 p k)) = _
  refine congrArg _ (funext fun a => Fin.ext ?_)
  match a with
  | ⟨0, _⟩ => show win1_0.index t (0 : Fin 2) * 400 + 1 * p.val = t.val * 400 + p.val; omega
  | ⟨1, _⟩ => show win1_0.index t (1 : Fin 2) * 10000 + 1 * k.val = k.val; omega

/-- An index of the output array is in point `t`'s strip iff its row is. -/
theorem mem_blk1 (t : Fin cfg1.N) (i : S10000x16.Idx) :
    i ∈ ((cfg1.win 4).blk t).view.set ↔ ∀ a : Fin 2, win1_4.index t a * S400x16.size a ≤ (i a).val
      ∧ (i a).val < win1_4.index t a * S400x16.size a + S400x16.size a := by
  show i ∈ ((View.whole main_v2).slice (win1_4.rect t)).set ↔ _
  rw [View.set_slice_whole, Rect.mem_set_unit]
  exact Iff.rfl

/-- Row `r` is in the strip of point `r / 400`. -/
theorem cover1 (i : S10000x16.Idx) :
    ∃ t : Fin cfg1.N, (cfg1.win 4).flush t = true ∧ i ∈ ((cfg1.win 4).blk t).view.set := by
  have hi0 : (i 0).val < 10000 := (i 0).isLt
  have hi1 : (i 1).val < 16 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨-, -, -, -, -, -, -, -, e40, e41⟩ := idx_facts1 t
  refine ⟨t, flush1_4 t, ?_⟩
  rw [mem_blk1]
  intro a
  match a with
  | ⟨0, _⟩ =>
    show win1_4.index t (0 : Fin 2) * 400 ≤ (i 0).val ∧ (i 0).val < win1_4.index t (0 : Fin 2) * 400 + 400
    omega
  | ⟨1, _⟩ =>
    show win1_4.index t (1 : Fin 2) * 16 ≤ (i 1).val ∧ (i 1).val < win1_4.index t (1 : Fin 2) * 16 + 16
    omega

/-- The array region 1 leaves: the rectified affine layer of the adjacency and the incoming features, times the next
    layer's weights. -/
theorem region1 (c : Dev nD) :
    (dat1 V c).arrAt 4 cfg1.N = mm (act (V c main_arg1) (V c main_v0) (V c main_v1)) (V c main_arg5) :=
  (dat1 V c).arrAt_eq_of_cover 4 _ (fun t _ => flushed1 V c t) (cover1)

end Cert.KernelIdeal.Val

end
-- ==== Proof.Region2.lean ====
/-
  What kernel region 2 leaves in its output array, for any contents `V` of the buffers at the region's entry.

  The body computes `max (a s + b, 0) w` on a strip of 400 rows of the adjacency `a`: the rectified affine layer of the
  incoming features `s` (16 columns) with the one-row bias `b`, times the next layer's weights `w` (16 × 256).
  The region's grid has one axis; point `t` works on the strip of rows `t · rows .. t · rows + rows − 1` of the row-blocked
  operand and of the output, and on the whole of every other operand. The body's stored value is a function of the loaded
  blocks (its casts to bf16 are the identity on extended reals, its matmuls into a zero accumulator are matrix products),
  so what point `t` writes back is strip `t` of ONE function of the entry arrays; a row of that function depends only on
  the same row of the row-blocked operand. The strips tile the output array, so the array ends as that function.
-/
import proofs.«146525_g77695958385290_cont_9to1_m_733_3_alg».proof.Proof.Gen.KernelIdeal.Frame
import proofs.«146525_g77695958385290_cont_9to1_m_733_3_alg».proof.Proof.LibDense

set_option maxRecDepth 16384

noncomputable section

open scoped BigOperators

namespace Cert.KernelIdeal.Val

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

theorem trunc_id2 {s : Shape} (a : FVec Ideal s .f32) (h : FTy.bits .bf16 < FTy.bits .f32) :
    (truncf .bf16 a h : FVec Ideal s .bf16) = a := rfl

/-- The body's stored value, as a function of the loaded blocks. -/
theorem pay2_eq (x0 : Vec Ideal S400x10000 .f32) (x1 : Vec Ideal S10000x16 .f32) (x2 : Vec Ideal S1x16 .f32)
    (x3 : Vec Ideal S16x256 .f32) : k2_pay1 (F := Ideal) x0 x1 x2 x3 = mm (act x0 x1 x2) x3 := by
  unfold k2_pay1
  dsimp only
  rw [shapeCast_self, shapeCast_self]
  rw [trunc_id2, trunc_id2, trunc_id2, trunc_id2]
  rw [matmul_zero_eq_mm dot_S400x10000_S10000x16_S400x16_1_0_0_1_n_n rfl rfl rfl rfl rfl rfl, vecReluBias,
    matmul_zero_eq_mm dot_S400x16_S16x256_S400x256_1_0_0_1_n_n rfl rfl rfl rfl rfl rfl]
  rfl

theorem hz2 : (![0, 0] : Fin 2 → Nat) = fun _ => 0 := funext fun a => by fin_cases a <;> rfl

variable (V : (c : Dev nD) → (b : Ref sig .tc) → Buf (Elt Ideal) ((c : Thread nD τ).loc b))

/-- The block indices over the grid: the adjacency and the output move with the point along the rows, the other
    operands stay whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is strip `t` of the layer of the entry arrays. -/
theorem flushed2 (c : Dev nD) (t : Fin cfg2.N) :
    (dat2 V c).flushed 4 t = ((cfg2.win 4).blk t).view.read (Elt Ideal)
      (mm (act (V c main_arg1) (V c main_v2) (V c main_v3)) (V c main_arg7)) := by
  show (cfg2.win 4).cut (grid2.coords t) ((dat2 V c).after 4 t) = _
  rw [after2_4]
  unfold out2_4
  rw [View.canon_unit_zero hz2]
  simp only [View.ld_unit_zero (S := S400x10000) hz2, View.ld_unit_zero (S := S10000x16) hz2,
    View.ld_unit_zero (S := S1x16) hz2, View.ld_unit_zero (S := S16x256) hz2]
  rw [pay2_eq]
  funext j
  obtain ⟨p, q, rfl⟩ : ∃ (p : Fin 400) (q : Fin 256), j = ix2 p q := ⟨j 0, j 1, eq_ix2 j⟩
  obtain ⟨e00, e01, e10, e11, e20, e21, e30, e31, e40, e41⟩ := idx_facts2 t
  have ht : t.val < 25 := lt_of_lt_of_eq t.isLt N_2
  have hS : iblk2 V c 1 t = V c main_v2 := by
    funext y
    show V c main_v2 (((cfg2.win 1).blk t).view.emb y) = V c main_v2 y
    refine congrArg _ (funext fun a => Fin.ext ?_)
    match a with
    | ⟨0, _⟩ => show win2_1.index t (0 : Fin 2) * 10000 + 1 * (y 0).val = (y 0).val; omega
    | ⟨1, _⟩ => show win2_1.index t (1 : Fin 2) * 16 + 1 * (y 1).val = (y 1).val; omega
  have hb : iblk2 V c 2 t = V c main_v3 := by
    funext y
    show V c main_v3 (((cfg2.win 2).blk t).view.emb y) = V c main_v3 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 16 + 1 * (y 1).val = (y 1).val; omega
  have hW : iblk2 V c 3 t = V c main_arg7 := by
    funext y
    show V c main_arg7 (((cfg2.win 3).blk t).view.emb y) = V c main_arg7 y
    refine congrArg _ (funext fun a => Fin.ext ?_)
    match a with
    | ⟨0, _⟩ => show win2_3.index t (0 : Fin 2) * 16 + 1 * (y 0).val = (y 0).val; omega
    | ⟨1, _⟩ => show win2_3.index t (1 : Fin 2) * 256 + 1 * (y 1).val = (y 1).val; omega
  rw [hS, hb, hW]
  have hemb : ((View.whole main_v4).slice ((win2 4).rect t)).emb (ix2 p q)
      = ix2 (⟨t.val * 400 + p.val, by omega⟩ : Fin 10000) q := by
    funext a; apply Fin.ext
    match a with
    | ⟨0, _⟩ => show win2_4.index t (0 : Fin 2) * 400 + 1 * p.val = t.val * 400 + p.val; omega
    | ⟨1, _⟩ => show win2_4.index t (1 : Fin 2) * 256 + 1 * q.val = q.val; omega
  show mm (act (iblk2 V c 0 t) (V c main_v2) (V c main_v3)) (V c main_arg7) (ix2 p q)
    = mm (act (V c main_arg1) (V c main_v2) (V c main_v3)) (V c main_arg7)
        (((View.whole main_v4).slice ((win2 4).rect t)).emb (ix2 p q))
  rw [hemb]
  refine mm_act_rows (V c main_arg1) (iblk2 V c 0 t) (V c main_v2) (V c main_v3) (V c main_arg7) _ p (fun k => ?_) q
  show V c main_arg1 (((cfg2.win 0).blk t).view.emb (ix2 p k)) = _
  refine congrArg _ (funext fun a => Fin.ext ?_)
  match a with
  | ⟨0, _⟩ => show win2_0.index t (0 : Fin 2) * 400 + 1 * p.val = t.val * 400 + p.val; omega
  | ⟨1, _⟩ => show win2_0.index t (1 : Fin 2) * 10000 + 1 * k.val = k.val; omega

/-- An index of the output array is in point `t`'s strip iff its row is. -/
theorem mem_blk2 (t : Fin cfg2.N) (i : S10000x256.Idx) :
    i ∈ ((cfg2.win 4).blk t).view.set ↔ ∀ a : Fin 2, win2_4.index t a * S400x256.size a ≤ (i a).val
      ∧ (i a).val < win2_4.index t a * S400x256.size a + S400x256.size a := by
  show i ∈ ((View.whole main_v4).slice (win2_4.rect t)).set ↔ _
  rw [View.set_slice_whole, Rect.mem_set_unit]
  exact Iff.rfl

/-- Row `r` is in the strip of point `r / 400`. -/
theorem cover2 (i : S10000x256.Idx) :
    ∃ t : Fin cfg2.N, (cfg2.win 4).flush t = true ∧ i ∈ ((cfg2.win 4).blk t).view.set := by
  have hi0 : (i 0).val < 10000 := (i 0).isLt
  have hi1 : (i 1).val < 256 := (i 1).isLt
  have hN : cfg2.N = 25 := N_2
  obtain ⟨t, ht⟩ : ∃ t : Fin cfg2.N, t.val = (i 0).val / 400 := ⟨⟨(i 0).val / 400, by rw [hN]; omega⟩, rfl⟩
  obtain ⟨-, -, -, -, -, -, -, -, e40, e41⟩ := idx_facts2 t
  refine ⟨t, flush2_4 t, ?_⟩
  rw [mem_blk2]
  intro a
  match a with
  | ⟨0, _⟩ =>
    show win2_4.index t (0 : Fin 2) * 400 ≤ (i 0).val ∧ (i 0).val < win2_4.index t (0 : Fin 2) * 400 + 400
    omega
  | ⟨1, _⟩ =>
    show win2_4.index t (1 : Fin 2) * 256 ≤ (i 1).val ∧ (i 1).val < win2_4.index t (1 : Fin 2) * 256 + 256
    omega

/-- The array region 2 leaves: the rectified affine layer of the adjacency and the incoming features, times the next
    layer's weights. -/
theorem region2 (c : Dev nD) :
    (dat2 V c).arrAt 4 cfg2.N = mm (act (V c main_arg1) (V c main_v2) (V c main_v3)) (V c main_arg7) :=
  (dat2 V c).arrAt_eq_of_cover 4 _ (fun t _ => flushed2 V c t) (cover2)

end Cert.KernelIdeal.Val

end
-- ==== Proof.Region3.lean ====
/-
  What kernel region 3 leaves in its output array, for any contents `V` of the buffers at the region's entry.

  The body computes `max (a s + b, 0) w` on a strip of 400 rows of the adjacency `a`: the rectified affine layer of the
  incoming features `s` (256 columns) with the one-row bias `b`, times the next layer's weights `w` (256 × 128).
  The region's grid has one axis; point `t` works on the strip of rows `t · rows .. t · rows + rows − 1` of the row-blocked
  operand and of the output, and on the whole of every other operand. The body's stored value is a function of the loaded
  blocks (its casts to bf16 are the identity on extended reals, its matmuls into a zero accumulator are matrix products),
  so what point `t` writes back is strip `t` of ONE function of the entry arrays; a row of that function depends only on
  the same row of the row-blocked operand. The strips tile the output array, so the array ends as that function.
-/
import proofs.«146525_g77695958385290_cont_9to1_m_733_3_alg».proof.Proof.Gen.KernelIdeal.Frame
import proofs.«146525_g77695958385290_cont_9to1_m_733_3_alg».proof.Proof.LibDense

set_option maxRecDepth 16384

noncomputable section

open scoped BigOperators

namespace Cert.KernelIdeal.Val

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

theorem trunc_id3 {s : Shape} (a : FVec Ideal s .f32) (h : FTy.bits .bf16 < FTy.bits .f32) :
    (truncf .bf16 a h : FVec Ideal s .bf16) = a := rfl

/-- The body's stored value, as a function of the loaded blocks. -/
theorem pay3_eq (x0 : Vec Ideal S400x10000 .f32) (x1 : Vec Ideal S10000x256 .f32) (x2 : Vec Ideal S1x256 .f32)
    (x3 : Vec Ideal S256x128 .f32) : k3_pay1 (F := Ideal) x0 x1 x2 x3 = mm (act x0 x1 x2) x3 := by
  unfold k3_pay1
  dsimp only
  rw [shapeCast_self, shapeCast_self]
  rw [trunc_id3, trunc_id3, trunc_id3, trunc_id3]
  rw [matmul_zero_eq_mm dot_S400x10000_S10000x256_S400x256_1_0_0_1_n_n rfl rfl rfl rfl rfl rfl, vecReluBias,
    matmul_zero_eq_mm dot_S400x256_S256x128_S400x128_1_0_0_1_n_n rfl rfl rfl rfl rfl rfl]
  rfl

theorem hz3 : (![0, 0] : Fin 2 → Nat) = fun _ => 0 := funext fun a => by fin_cases a <;> rfl

variable (V : (c : Dev nD) → (b : Ref sig .tc) → Buf (Elt Ideal) ((c : Thread nD τ).loc b))

/-- The block indices over the grid: the adjacency and the output move with the point along the rows, the other
    operands stay whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is strip `t` of the layer of the entry arrays. -/
theorem flushed3 (c : Dev nD) (t : Fin cfg3.N) :
    (dat3 V c).flushed 4 t = ((cfg3.win 4).blk t).view.read (Elt Ideal)
      (mm (act (V c main_arg1) (V c main_v4) (V c main_v5)) (V c main_arg3)) := by
  show (cfg3.win 4).cut (grid3.coords t) ((dat3 V c).after 4 t) = _
  rw [after3_4]
  unfold out3_4
  rw [View.canon_unit_zero hz3]
  simp only [View.ld_unit_zero (S := S400x10000) hz3, View.ld_unit_zero (S := S10000x256) hz3,
    View.ld_unit_zero (S := S1x256) hz3, View.ld_unit_zero (S := S256x128) hz3]
  rw [pay3_eq]
  funext j
  obtain ⟨p, q, rfl⟩ : ∃ (p : Fin 400) (q : Fin 128), j = ix2 p q := ⟨j 0, j 1, eq_ix2 j⟩
  obtain ⟨e00, e01, e10, e11, e20, e21, e30, e31, e40, e41⟩ := idx_facts3 t
  have ht : t.val < 25 := lt_of_lt_of_eq t.isLt N_3
  have hS : iblk3 V c 1 t = V c main_v4 := by
    funext y
    show V c main_v4 (((cfg3.win 1).blk t).view.emb y) = V c main_v4 y
    refine congrArg _ (funext fun a => Fin.ext ?_)
    match a with
    | ⟨0, _⟩ => show win3_1.index t (0 : Fin 2) * 10000 + 1 * (y 0).val = (y 0).val; omega
    | ⟨1, _⟩ => show win3_1.index t (1 : Fin 2) * 256 + 1 * (y 1).val = (y 1).val; omega
  have hb : iblk3 V c 2 t = V c main_v5 := by
    funext y
    show V c main_v5 (((cfg3.win 2).blk t).view.emb y) = V c main_v5 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 256 + 1 * (y 1).val = (y 1).val; omega
  have hW : iblk3 V c 3 t = V c main_arg3 := by
    funext y
    show V c main_arg3 (((cfg3.win 3).blk t).view.emb y) = V c main_arg3 y
    refine congrArg _ (funext fun a => Fin.ext ?_)
    match a with
    | ⟨0, _⟩ => show win3_3.index t (0 : Fin 2) * 256 + 1 * (y 0).val = (y 0).val; omega
    | ⟨1, _⟩ => show win3_3.index t (1 : Fin 2) * 128 + 1 * (y 1).val = (y 1).val; omega
  rw [hS, hb, hW]
  have hemb : ((View.whole main_v6).slice ((win3 4).rect t)).emb (ix2 p q)
      = ix2 (⟨t.val * 400 + p.val, by omega⟩ : Fin 10000) q := by
    funext a; apply Fin.ext
    match a with
    | ⟨0, _⟩ => show win3_4.index t (0 : Fin 2) * 400 + 1 * p.val = t.val * 400 + p.val; omega
    | ⟨1, _⟩ => show win3_4.index t (1 : Fin 2) * 128 + 1 * q.val = q.val; omega
  show mm (act (iblk3 V c 0 t) (V c main_v4) (V c main_v5)) (V c main_arg3) (ix2 p q)
    = mm (act (V c main_arg1) (V c main_v4) (V c main_v5)) (V c main_arg3)
        (((View.whole main_v6).slice ((win3 4).rect t)).emb (ix2 p q))
  rw [hemb]
  refine mm_act_rows (V c main_arg1) (iblk3 V c 0 t) (V c main_v4) (V c main_v5) (V c main_arg3) _ p (fun k => ?_) q
  show V c main_arg1 (((cfg3.win 0).blk t).view.emb (ix2 p k)) = _
  refine congrArg _ (funext fun a => Fin.ext ?_)
  match a with
  | ⟨0, _⟩ => show win3_0.index t (0 : Fin 2) * 400 + 1 * p.val = t.val * 400 + p.val; omega
  | ⟨1, _⟩ => show win3_0.index t (1 : Fin 2) * 10000 + 1 * k.val = k.val; omega

/-- An index of the output array is in point `t`'s strip iff its row is. -/
theorem mem_blk3 (t : Fin cfg3.N) (i : S10000x128.Idx) :
    i ∈ ((cfg3.win 4).blk t).view.set ↔ ∀ a : Fin 2, win3_4.index t a * S400x128.size a ≤ (i a).val
      ∧ (i a).val < win3_4.index t a * S400x128.size a + S400x128.size a := by
  show i ∈ ((View.whole main_v6).slice (win3_4.rect t)).set ↔ _
  rw [View.set_slice_whole, Rect.mem_set_unit]
  exact Iff.rfl

/-- Row `r` is in the strip of point `r / 400`. -/
theorem cover3 (i : S10000x128.Idx) :
    ∃ t : Fin cfg3.N, (cfg3.win 4).flush t = true ∧ i ∈ ((cfg3.win 4).blk t).view.set := by
  have hi0 : (i 0).val < 10000 := (i 0).isLt
  have hi1 : (i 1).val < 128 := (i 1).isLt
  have hN : cfg3.N = 25 := N_3
  obtain ⟨t, ht⟩ : ∃ t : Fin cfg3.N, t.val = (i 0).val / 400 := ⟨⟨(i 0).val / 400, by rw [hN]; omega⟩, rfl⟩
  obtain ⟨-, -, -, -, -, -, -, -, e40, e41⟩ := idx_facts3 t
  refine ⟨t, flush3_4 t, ?_⟩
  rw [mem_blk3]
  intro a
  match a with
  | ⟨0, _⟩ =>
    show win3_4.index t (0 : Fin 2) * 400 ≤ (i 0).val ∧ (i 0).val < win3_4.index t (0 : Fin 2) * 400 + 400
    omega
  | ⟨1, _⟩ =>
    show win3_4.index t (1 : Fin 2) * 128 ≤ (i 1).val ∧ (i 1).val < win3_4.index t (1 : Fin 2) * 128 + 128
    omega

/-- The array region 3 leaves: the rectified affine layer of the adjacency and the incoming features, times the next
    layer's weights. -/
theorem region3 (c : Dev nD) :
    (dat3 V c).arrAt 4 cfg3.N = mm (act (V c main_arg1) (V c main_v4) (V c main_v5)) (V c main_arg3) :=
  (dat3 V c).arrAt_eq_of_cover 4 _ (fun t _ => flushed3 V c t) (cover3)

end Cert.KernelIdeal.Val

end
-- ==== Proof.Region4.lean ====
/-
  What kernel region 4 leaves in its output array, for any contents `V` of the buffers at the region's entry.

  The body computes `max (a s + b, 0) w` on a strip of 400 rows of the adjacency `a`: the rectified affine layer of the
  incoming features `s` (128 columns) with the one-row bias `b`, times the next layer's weights `w` (128 × 16).
  The region's grid has one axis; point `t` works on the strip of rows `t · rows .. t · rows + rows − 1` of the row-blocked
  operand and of the output, and on the whole of every other operand. The body's stored value is a function of the loaded
  blocks (its casts to bf16 are the identity on extended reals, its matmuls into a zero accumulator are matrix products),
  so what point `t` writes back is strip `t` of ONE function of the entry arrays; a row of that function depends only on
  the same row of the row-blocked operand. The strips tile the output array, so the array ends as that function.
-/
import proofs.«146525_g77695958385290_cont_9to1_m_733_3_alg».proof.Proof.Gen.KernelIdeal.Frame
import proofs.«146525_g77695958385290_cont_9to1_m_733_3_alg».proof.Proof.LibDense

set_option maxRecDepth 16384

noncomputable section

open scoped BigOperators

namespace Cert.KernelIdeal.Val

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

theorem trunc_id4 {s : Shape} (a : FVec Ideal s .f32) (h : FTy.bits .bf16 < FTy.bits .f32) :
    (truncf .bf16 a h : FVec Ideal s .bf16) = a := rfl

/-- The body's stored value, as a function of the loaded blocks. -/
theorem pay4_eq (x0 : Vec Ideal S400x10000 .f32) (x1 : Vec Ideal S10000x128 .f32) (x2 : Vec Ideal S1x128 .f32)
    (x3 : Vec Ideal S128x16 .f32) : k4_pay1 (F := Ideal) x0 x1 x2 x3 = mm (act x0 x1 x2) x3 := by
  unfold k4_pay1
  dsimp only
  rw [shapeCast_self, shapeCast_self]
  rw [trunc_id4, trunc_id4, trunc_id4, trunc_id4]
  rw [matmul_zero_eq_mm dot_S400x10000_S10000x128_S400x128_1_0_0_1_n_n rfl rfl rfl rfl rfl rfl, vecReluBias,
    matmul_zero_eq_mm dot_S400x128_S128x16_S400x16_1_0_0_1_n_n rfl rfl rfl rfl rfl rfl]
  rfl

theorem hz4 : (![0, 0] : Fin 2 → Nat) = fun _ => 0 := funext fun a => by fin_cases a <;> rfl

variable (V : (c : Dev nD) → (b : Ref sig .tc) → Buf (Elt Ideal) ((c : Thread nD τ).loc b))

/-- The block indices over the grid: the adjacency and the output move with the point along the rows, the other
    operands stay whole. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point `t` writes back is strip `t` of the layer of the entry arrays. -/
theorem flushed4 (c : Dev nD) (t : Fin cfg4.N) :
    (dat4 V c).flushed 4 t = ((cfg4.win 4).blk t).view.read (Elt Ideal)
      (mm (act (V c main_arg2) (V c main_v6) (V c main_v7)) (V c main_arg5)) := by
  show (cfg4.win 4).cut (grid4.coords t) ((dat4 V c).after 4 t) = _
  rw [after4_4]
  unfold out4_4
  rw [View.canon_unit_zero hz4]
  simp only [View.ld_unit_zero (S := S400x10000) hz4, View.ld_unit_zero (S := S10000x128) hz4,
    View.ld_unit_zero (S := S1x128) hz4, View.ld_unit_zero (S := S128x16) hz4]
  rw [pay4_eq]
  funext j
  obtain ⟨p, q, rfl⟩ : ∃ (p : Fin 400) (q : Fin 16), j = ix2 p q := ⟨j 0, j 1, eq_ix2 j⟩
  obtain ⟨e00, e01, e10, e11, e20, e21, e30, e31, e40, e41⟩ := idx_facts4 t
  have ht : t.val < 25 := lt_of_lt_of_eq t.isLt N_4
  have hS : iblk4 V c 1 t = V c main_v6 := by
    funext y
    show V c main_v6 (((cfg4.win 1).blk t).view.emb y) = V c main_v6 y
    refine congrArg _ (funext fun a => Fin.ext ?_)
    match a with
    | ⟨0, _⟩ => show win4_1.index t (0 : Fin 2) * 10000 + 1 * (y 0).val = (y 0).val; omega
    | ⟨1, _⟩ => show win4_1.index t (1 : Fin 2) * 128 + 1 * (y 1).val = (y 1).val; omega
  have hb : iblk4 V c 2 t = V c main_v7 := by
    funext y
    show V c main_v7 (((cfg4.win 2).blk t).view.emb y) = V c main_v7 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 128 + 1 * (y 1).val = (y 1).val; omega
  have hW : iblk4 V c 3 t = V c main_arg5 := by
    funext y
    show V c main_arg5 (((cfg4.win 3).blk t).view.emb y) = V c main_arg5 y
    refine congrArg _ (funext fun a => Fin.ext ?_)
    match a with
    | ⟨0, _⟩ => show win4_3.index t (0 : Fin 2) * 128 + 1 * (y 0).val = (y 0).val; omega
    | ⟨1, _⟩ => show win4_3.index t (1 : Fin 2) * 16 + 1 * (y 1).val = (y 1).val; omega
  rw [hS, hb, hW]
  have hemb : ((View.whole main_v8).slice ((win4 4).rect t)).emb (ix2 p q)
      = ix2 (⟨t.val * 400 + p.val, by omega⟩ : Fin 10000) q := by
    funext a; apply Fin.ext
    match a with
    | ⟨0, _⟩ => show win4_4.index t (0 : Fin 2) * 400 + 1 * p.val = t.val * 400 + p.val; omega
    | ⟨1, _⟩ => show win4_4.index t (1 : Fin 2) * 16 + 1 * q.val = q.val; omega
  show mm (act (iblk4 V c 0 t) (V c main_v6) (V c main_v7)) (V c main_arg5) (ix2 p q)
    = mm (act (V c main_arg2) (V c main_v6) (V c main_v7)) (V c main_arg5)
        (((View.whole main_v8).slice ((win4 4).rect t)).emb (ix2 p q))
  rw [hemb]
  refine mm_act_rows (V c main_arg2) (iblk4 V c 0 t) (V c main_v6) (V c main_v7) (V c main_arg5) _ p (fun k => ?_) q
  show V c main_arg2 (((cfg4.win 0).blk t).view.emb (ix2 p k)) = _
  refine congrArg _ (funext fun a => Fin.ext ?_)
  match a with
  | ⟨0, _⟩ => show win4_0.index t (0 : Fin 2) * 400 + 1 * p.val = t.val * 400 + p.val; omega
  | ⟨1, _⟩ => show win4_0.index t (1 : Fin 2) * 10000 + 1 * k.val = k.val; omega

/-- An index of the output array is in point `t`'s strip iff its row is. -/
theorem mem_blk4 (t : Fin cfg4.N) (i : S10000x16.Idx) :
    i ∈ ((cfg4.win 4).blk t).view.set ↔ ∀ a : Fin 2, win4_4.index t a * S400x16.size a ≤ (i a).val
      ∧ (i a).val < win4_4.index t a * S400x16.size a + S400x16.size a := by
  show i ∈ ((View.whole main_v8).slice (win4_4.rect t)).set ↔ _
  rw [View.set_slice_whole, Rect.mem_set_unit]
  exact Iff.rfl

/-- Row `r` is in the strip of point `r / 400`. -/
theorem cover4 (i : S10000x16.Idx) :
    ∃ t : Fin cfg4.N, (cfg4.win 4).flush t = true ∧ i ∈ ((cfg4.win 4).blk t).view.set := by
  have hi0 : (i 0).val < 10000 := (i 0).isLt
  have hi1 : (i 1).val < 16 := (i 1).isLt
  have hN : cfg4.N = 25 := N_4
  obtain ⟨t, ht⟩ : ∃ t : Fin cfg4.N, t.val = (i 0).val / 400 := ⟨⟨(i 0).val / 400, by rw [hN]; omega⟩, rfl⟩
  obtain ⟨-, -, -, -, -, -, -, -, e40, e41⟩ := idx_facts4 t
  refine ⟨t, flush4_4 t, ?_⟩
  rw [mem_blk4]
  intro a
  match a with
  | ⟨0, _⟩ =>
    show win4_4.index t (0 : Fin 2) * 400 ≤ (i 0).val ∧ (i 0).val < win4_4.index t (0 : Fin 2) * 400 + 400
    omega
  | ⟨1, _⟩ =>
    show win4_4.index t (1 : Fin 2) * 16 ≤ (i 1).val ∧ (i 1).val < win4_4.index t (1 : Fin 2) * 16 + 16
    omega

/-- The array region 4 leaves: the rectified affine layer of the adjacency and the incoming features, times the next
    layer's weights. -/
theorem region4 (c : Dev nD) :
    (dat4 V c).arrAt 4 cfg4.N = mm (act (V c main_arg2) (V c main_v6) (V c main_v7)) (V c main_arg5) :=
  (dat4 V c).arrAt_eq_of_cover 4 _ (fun t _ => flushed4 V c t) (cover4)

end Cert.KernelIdeal.Val

end
-- ==== Proof.Region5.lean ====
/-
  What kernel region 5 leaves in its output array, for any contents `V` of the buffers at the region's entry.

  The body computes `max (a s + b, 0)` on a strip of 400 rows of the adjacency `a`: the rectified affine layer of the
  incoming features `s` (16 columns) with the one-row bias `b`.
  The region's grid has one axis; point `t` works on the strip of rows `t · rows .. t · rows + rows − 1` of the row-blocked
  operand and of the output, and on the whole of every other operand. The body's stored value is a function of the loaded
  blocks (its casts to bf16 are the identity on extended reals, its matmuls into a zero accumulator are matrix products),
  so what point `t` writes back is strip `t` of ONE function of the entry arrays; a row of that function depends only on
  the same row of the row-blocked operand. The strips tile the output array, so the array ends as that function.
-/
import proofs.«146525_g77695958385290_cont_9to1_m_733_3_alg».proof.Proof.Gen.KernelIdeal.Frame
import proofs.«146525_g77695958385290_cont_9to1_m_733_3_alg».proof.Proof.LibDense

set_option maxRecDepth 16384

noncomputable section

open scoped BigOperators

namespace Cert.KernelIdeal.Val

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

theorem trunc_id5 {s : Shape} (a : FVec Ideal s .f32) (h : FTy.bits .bf16 < FTy.bits .f32) :
    (truncf .bf16 a h : FVec Ideal s .bf16) = a := rfl

/-- The body's stored value, as a function of the loaded blocks. -/
theorem pay5_eq (x0 : Vec Ideal S400x10000 .f32) (x1 : Vec Ideal S10000x16 .f32) (x2 : Vec Ideal S1x16 .f32) :
    k5_pay1 (F := Ideal) x0 x1 x2 = act x0 x1 x2 := by
  unfold k5_pay1
  dsimp only
  rw [shapeCast_self, shapeCast_self]
  rw [trunc_id5, trunc_id5]
  rw [matmul_zero_eq_mm dot_S400x10000_S10000x16_S400x16_1_0_0_1_n_n rfl rfl rfl rfl rfl rfl, vecReluBias]
  rfl

theorem hz5 : (![0, 0] : Fin 2 → Nat) = fun _ => 0 := funext fun a => by fin_cases a <;> rfl

variable (V : (c : Dev nD) → (b : Ref sig .tc) → Buf (Elt Ideal) ((c : Thread nD τ).loc b))

/-- The block indices over the grid: the adjacency and the output move with the point along the rows, the other
    operands stay whole. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is strip `t` of the layer of the entry arrays. -/
theorem flushed5 (c : Dev nD) (t : Fin cfg5.N) :
    (dat5 V c).flushed 3 t = ((cfg5.win 3).blk t).view.read (Elt Ideal)
      (act (V c main_arg2) (V c main_v8) (V c main_v9)) := by
  show (cfg5.win 3).cut (grid5.coords t) ((dat5 V c).after 3 t) = _
  rw [after5_3]
  unfold out5_3
  rw [View.canon_unit_zero hz5]
  simp only [View.ld_unit_zero (S := S400x10000) hz5, View.ld_unit_zero (S := S10000x16) hz5,
    View.ld_unit_zero (S := S1x16) hz5]
  rw [pay5_eq]
  funext j
  obtain ⟨p, q, rfl⟩ : ∃ (p : Fin 400) (q : Fin 16), j = ix2 p q := ⟨j 0, j 1, eq_ix2 j⟩
  obtain ⟨e00, e01, e10, e11, e20, e21, e30, e31⟩ := idx_facts5 t
  have ht : t.val < 25 := lt_of_lt_of_eq t.isLt N_5
  have hS : iblk5 V c 1 t = V c main_v8 := by
    funext y
    show V c main_v8 (((cfg5.win 1).blk t).view.emb y) = V c main_v8 y
    refine congrArg _ (funext fun a => Fin.ext ?_)
    match a with
    | ⟨0, _⟩ => show win5_1.index t (0 : Fin 2) * 10000 + 1 * (y 0).val = (y 0).val; omega
    | ⟨1, _⟩ => show win5_1.index t (1 : Fin 2) * 16 + 1 * (y 1).val = (y 1).val; omega
  have hb : iblk5 V c 2 t = V c main_v9 := by
    funext y
    show V c main_v9 (((cfg5.win 2).blk t).view.emb y) = V c main_v9 y
    refine congrArg _ (funext fun a => Fin.ext ?_)
    match a with
    | ⟨0, _⟩ => show win5_2.index t (0 : Fin 2) * 1 + 1 * (y 0).val = (y 0).val; omega
    | ⟨1, _⟩ => show win5_2.index t (1 : Fin 2) * 16 + 1 * (y 1).val = (y 1).val; omega
  rw [hS, hb]
  have hemb : ((View.whole main_v10).slice ((win5 3).rect t)).emb (ix2 p q)
      = ix2 (⟨t.val * 400 + p.val, by omega⟩ : Fin 10000) q := by
    funext a; apply Fin.ext
    match a with
    | ⟨0, _⟩ => show win5_3.index t (0 : Fin 2) * 400 + 1 * p.val = t.val * 400 + p.val; omega
    | ⟨1, _⟩ => show win5_3.index t (1 : Fin 2) * 16 + 1 * q.val = q.val; omega
  show act (iblk5 V c 0 t) (V c main_v8) (V c main_v9) (ix2 p q)
    = act (V c main_arg2) (V c main_v8) (V c main_v9)
        (((View.whole main_v10).slice ((win5 3).rect t)).emb (ix2 p q))
  rw [hemb]
  refine act_rows (V c main_arg2) (iblk5 V c 0 t) (V c main_v8) (V c main_v9) _ p (fun k => ?_) q
  show V c main_arg2 (((cfg5.win 0).blk t).view.emb (ix2 p k)) = _
  refine congrArg _ (funext fun a => Fin.ext ?_)
  match a with
  | ⟨0, _⟩ => show win5_0.index t (0 : Fin 2) * 400 + 1 * p.val = t.val * 400 + p.val; omega
  | ⟨1, _⟩ => show win5_0.index t (1 : Fin 2) * 10000 + 1 * k.val = k.val; omega

/-- An index of the output array is in point `t`'s strip iff its row is. -/
theorem mem_blk5 (t : Fin cfg5.N) (i : S10000x16.Idx) :
    i ∈ ((cfg5.win 3).blk t).view.set ↔ ∀ a : Fin 2, win5_3.index t a * S400x16.size a ≤ (i a).val
      ∧ (i a).val < win5_3.index t a * S400x16.size a + S400x16.size a := by
  show i ∈ ((View.whole main_v10).slice (win5_3.rect t)).set ↔ _
  rw [View.set_slice_whole, Rect.mem_set_unit]
  exact Iff.rfl

/-- Row `r` is in the strip of point `r / 400`. -/
theorem cover5 (i : S10000x16.Idx) :
    ∃ t : Fin cfg5.N, (cfg5.win 3).flush t = true ∧ i ∈ ((cfg5.win 3).blk t).view.set := by
  have hi0 : (i 0).val < 10000 := (i 0).isLt
  have hi1 : (i 1).val < 16 := (i 1).isLt
  have hN : cfg5.N = 25 := N_5
  obtain ⟨t, ht⟩ : ∃ t : Fin cfg5.N, t.val = (i 0).val / 400 := ⟨⟨(i 0).val / 400, by rw [hN]; omega⟩, rfl⟩
  obtain ⟨-, -, -, -, -, -, e30, e31⟩ := idx_facts5 t
  refine ⟨t, flush5_3 t, ?_⟩
  rw [mem_blk5]
  intro a
  match a with
  | ⟨0, _⟩ =>
    show win5_3.index t (0 : Fin 2) * 400 ≤ (i 0).val ∧ (i 0).val < win5_3.index t (0 : Fin 2) * 400 + 400
    omega
  | ⟨1, _⟩ =>
    show win5_3.index t (1 : Fin 2) * 16 ≤ (i 1).val ∧ (i 1).val < win5_3.index t (1 : Fin 2) * 16 + 16
    omega

/-- The array region 5 leaves: the rectified affine layer of the adjacency and the incoming features. -/
theorem region5 (c : Dev nD) :
    (dat5 V c).arrAt 3 cfg5.N = act (V c main_arg2) (V c main_v8) (V c main_v9) :=
  (dat5 V c).arrAt_eq_of_cover 3 _ (fun t _ => flushed5 V c t) (cover5)

end Cert.KernelIdeal.Val

end
-- ==== Proof.KernelChain.lean ====
/-
  The idealized kernel's result buffer as a composition of dense layers of the launch memory.

  The buffer contents at the eleven segment boundaries are followed from the last back to the launch. A kernel region
  changes only its output array (an input array comes out of the region as it went in, any other buffer is untouched), and
  that array ends as the region's layer of the arrays at the region's entry. A reshape between two regions changes only its
  destination, which ends as the bias vector laid out as one row. No segment writes an argument buffer, so an argument
  read at any boundary is the launch memory's. Composing: the result buffer is the five-layer network of the arguments,
  each layer's product with the next layer's weights taken inside the region that computes the layer.
-/
import proofs.«146525_g77695958385290_cont_9to1_m_733_3_alg».proof.Proof.Gen.KernelIdeal.Frame
import proofs.«146525_g77695958385290_cont_9to1_m_733_3_alg».proof.Proof.LibDense
import proofs.«146525_g77695958385290_cont_9to1_m_733_3_alg».proof.Proof.Region0
import proofs.«146525_g77695958385290_cont_9to1_m_733_3_alg».proof.Proof.Region1
import proofs.«146525_g77695958385290_cont_9to1_m_733_3_alg».proof.Proof.Region2
import proofs.«146525_g77695958385290_cont_9to1_m_733_3_alg».proof.Proof.Region3
import proofs.«146525_g77695958385290_cont_9to1_m_733_3_alg».proof.Proof.Region4
import proofs.«146525_g77695958385290_cont_9to1_m_733_3_alg».proof.Proof.Region5
import Idealize.ShloMosaic.Lib.StableHlo.Run

set_option maxRecDepth 16384

noncomputable section

namespace Cert.KernelIdeal.Val

open Cert.KernelIdeal Cert.KernelIdeal.Gen Cert.Dense
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## A segment changes only what it writes -/

/-- Region 0 changes only its output array. -/
theorem keepR0 (b : Ref sig .tc) (hb : b ≠ main_v0) :
    W1 m ρ c (Proc.devRef .tc b) = W0 m ρ c (Proc.devRef .tc b) := by
  by_cases h : ∀ w, Pipeline.arrRef spec0 w ≠ b
  · exact W1_of_ne m ρ c b h
  · obtain ⟨w, hw'⟩ := not_forall.mp h
    obtain rfl := not_not.mp hw'
    have hw : (cfg0.win w).isOut = false := by
      match w with
      | ⟨0, _⟩ => rfl
      | ⟨1, _⟩ => rfl
      | ⟨2, _⟩ => exact absurd rfl hb
    exact (W1_arr m ρ c w).trans (((dat0 (V0 m ρ) c).arrAt_in w hw _).trans (A_eq0 (V0 m ρ) c w))

/-- Region 1 changes only its output array. -/
theorem keepR1 (b : Ref sig .tc) (hb : b ≠ main_v2) :
    W3 m ρ c (Proc.devRef .tc b) = W2 m ρ c (Proc.devRef .tc b) := by
  by_cases h : ∀ w, Pipeline.arrRef spec1 w ≠ b
  · exact W3_of_ne m ρ c b h
  · obtain ⟨w, hw'⟩ := not_forall.mp h
    obtain rfl := not_not.mp hw'
    have hw : (cfg1.win w).isOut = false := by
      match w with
      | ⟨0, _⟩ => rfl
      | ⟨1, _⟩ => rfl
      | ⟨2, _⟩ => rfl
      | ⟨3, _⟩ => rfl
      | ⟨4, _⟩ => exact absurd rfl hb
    exact (W3_arr m ρ c w).trans (((dat1 (V2 m ρ) c).arrAt_in w hw _).trans (A_eq1 (V2 m ρ) c w))

/-- Region 2 changes only its output array. -/
theorem keepR2 (b : Ref sig .tc) (hb : b ≠ main_v4) :
    W5 m ρ c (Proc.devRef .tc b) = W4 m ρ c (Proc.devRef .tc b) := by
  by_cases h : ∀ w, Pipeline.arrRef spec2 w ≠ b
  · exact W5_of_ne m ρ c b h
  · obtain ⟨w, hw'⟩ := not_forall.mp h
    obtain rfl := not_not.mp hw'
    have hw : (cfg2.win w).isOut = false := by
      match w with
      | ⟨0, _⟩ => rfl
      | ⟨1, _⟩ => rfl
      | ⟨2, _⟩ => rfl
      | ⟨3, _⟩ => rfl
      | ⟨4, _⟩ => exact absurd rfl hb
    exact (W5_arr m ρ c w).trans (((dat2 (V4 m ρ) c).arrAt_in w hw _).trans (A_eq2 (V4 m ρ) c w))

/-- Region 3 changes only its output array. -/
theorem keepR3 (b : Ref sig .tc) (hb : b ≠ main_v6) :
    W7 m ρ c (Proc.devRef .tc b) = W6 m ρ c (Proc.devRef .tc b) := by
  by_cases h : ∀ w, Pipeline.arrRef spec3 w ≠ b
  · exact W7_of_ne m ρ c b h
  · obtain ⟨w, hw'⟩ := not_forall.mp h
    obtain rfl := not_not.mp hw'
    have hw : (cfg3.win w).isOut = false := by
      match w with
      | ⟨0, _⟩ => rfl
      | ⟨1, _⟩ => rfl
      | ⟨2, _⟩ => rfl
      | ⟨3, _⟩ => rfl
      | ⟨4, _⟩ => exact absurd rfl hb
    exact (W7_arr m ρ c w).trans (((dat3 (V6 m ρ) c).arrAt_in w hw _).trans (A_eq3 (V6 m ρ) c w))

/-- Region 4 changes only its output array. -/
theorem keepR4 (b : Ref sig .tc) (hb : b ≠ main_v8) :
    W9 m ρ c (Proc.devRef .tc b) = W8 m ρ c (Proc.devRef .tc b) := by
  by_cases h : ∀ w, Pipeline.arrRef spec4 w ≠ b
  · exact W9_of_ne m ρ c b h
  · obtain ⟨w, hw'⟩ := not_forall.mp h
    obtain rfl := not_not.mp hw'
    have hw : (cfg4.win w).isOut = false := by
      match w with
      | ⟨0, _⟩ => rfl
      | ⟨1, _⟩ => rfl
      | ⟨2, _⟩ => rfl
      | ⟨3, _⟩ => rfl
      | ⟨4, _⟩ => exact absurd rfl hb
    exact (W9_arr m ρ c w).trans (((dat4 (V8 m ρ) c).arrAt_in w hw _).trans (A_eq4 (V8 m ρ) c w))

/-- Region 5 changes only its output array. -/
theorem keepR5 (b : Ref sig .tc) (hb : b ≠ main_v10) :
    W11 m ρ c (Proc.devRef .tc b) = W10 m ρ c (Proc.devRef .tc b) := by
  by_cases h : ∀ w, Pipeline.arrRef spec5 w ≠ b
  · exact W11_of_ne m ρ c b h
  · obtain ⟨w, hw'⟩ := not_forall.mp h
    obtain rfl := not_not.mp hw'
    have hw : (cfg5.win w).isOut = false := by
      match w with
      | ⟨0, _⟩ => rfl
      | ⟨1, _⟩ => rfl
      | ⟨2, _⟩ => rfl
      | ⟨3, _⟩ => exact absurd rfl hb
    exact (W11_arr m ρ c w).trans (((dat5 (V10 m ρ) c).arrAt_in w hw _).trans (A_eq5 (V10 m ρ) c w))

/-- The reshape before region 1 changes only its destination. -/
theorem keepH1 (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The reshape before region 2 changes only its destination. -/
theorem keepH2 (b : Ref sig .tc) (hb : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The reshape before region 3 changes only its destination. -/
theorem keepH3 (b : Ref sig .tc) (hb : b ≠ main_v5) :
    W6 m ρ c (Proc.devRef .tc b) = W5 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-- The reshape before region 4 changes only its destination. -/
theorem keepH4 (b : Ref sig .tc) (hb : b ≠ main_v7) :
    W8 m ρ c (Proc.devRef .tc b) = W7 m ρ c (Proc.devRef .tc b) :=
  StableHlo.after_of_forall_not_mem (b := Proc.devRef .tc b) _ _ (List.forall_iff_forall_mem.mp (by
    simp only [hostOps4, List.Forall, StableHlo.reshape_writes, Finset.mem_singleton]
    exact StableHlo.devRef_ne_of_ne hb))

/-- The reshape before region 5 changes only its destination. -/
theorem keepH5 (b : Ref sig .tc) (hb : b ≠ main_v9) :
    W10 m ρ c (Proc.devRef .tc b) = W9 m ρ c (Proc.devRef .tc b) :=
  StableHlo.after_of_forall_not_mem (b := Proc.devRef .tc b) _ _ (List.forall_iff_forall_mem.mp (by
    simp only [hostOps5, List.Forall, StableHlo.reshape_writes, Finset.mem_singleton]
    exact StableHlo.devRef_ne_of_ne hb))

/-! ## The arguments at every boundary -/

/-- No segment writes `b`. -/
abbrev Kept (b : Ref sig .tc) : Prop :=
  b ≠ main_v0 ∧ b ≠ main_v1 ∧ b ≠ main_v2 ∧ b ≠ main_v3 ∧ b ≠ main_v4 ∧ b ≠ main_v5 ∧ b ≠ main_v6 ∧ b ≠ main_v7
    ∧ b ≠ main_v8 ∧ b ≠ main_v9 ∧ b ≠ main_v10

theorem at0 (b : Ref sig .tc) : W0 m ρ c (Proc.devRef .tc b) = m ((c : Thread nD τ).loc b) := rfl
theorem at1 (b : Ref sig .tc) (h : Kept b) : W1 m ρ c (Proc.devRef .tc b) = m ((c : Thread nD τ).loc b) :=
  (keepR0 m ρ c b h.1).trans (at0 m ρ c b)
theorem at2 (b : Ref sig .tc) (h : Kept b) : W2 m ρ c (Proc.devRef .tc b) = m ((c : Thread nD τ).loc b) :=
  (keepH1 m ρ c b h.2.1).trans (at1 m ρ c b h)
theorem at3 (b : Ref sig .tc) (h : Kept b) : W3 m ρ c (Proc.devRef .tc b) = m ((c : Thread nD τ).loc b) :=
  (keepR1 m ρ c b h.2.2.1).trans (at2 m ρ c b h)
theorem at4 (b : Ref sig .tc) (h : Kept b) : W4 m ρ c (Proc.devRef .tc b) = m ((c : Thread nD τ).loc b) :=
  (keepH2 m ρ c b h.2.2.2.1).trans (at3 m ρ c b h)
theorem at5 (b : Ref sig .tc) (h : Kept b) : W5 m ρ c (Proc.devRef .tc b) = m ((c : Thread nD τ).loc b) :=
  (keepR2 m ρ c b h.2.2.2.2.1).trans (at4 m ρ c b h)
theorem at6 (b : Ref sig .tc) (h : Kept b) : W6 m ρ c (Proc.devRef .tc b) = m ((c : Thread nD τ).loc b) :=
  (keepH3 m ρ c b h.2.2.2.2.2.1).trans (at5 m ρ c b h)
theorem at7 (b : Ref sig .tc) (h : Kept b) : W7 m ρ c (Proc.devRef .tc b) = m ((c : Thread nD τ).loc b) :=
  (keepR3 m ρ c b h.2.2.2.2.2.2.1).trans (at6 m ρ c b h)
theorem at8 (b : Ref sig .tc) (h : Kept b) : W8 m ρ c (Proc.devRef .tc b) = m ((c : Thread nD τ).loc b) :=
  (keepH4 m ρ c b h.2.2.2.2.2.2.2.1).trans (at7 m ρ c b h)
theorem at9 (b : Ref sig .tc) (h : Kept b) : W9 m ρ c (Proc.devRef .tc b) = m ((c : Thread nD τ).loc b) :=
  (keepR4 m ρ c b h.2.2.2.2.2.2.2.2.1).trans (at8 m ρ c b h)
theorem at10 (b : Ref sig .tc) (h : Kept b) : W10 m ρ c (Proc.devRef .tc b) = m ((c : Thread nD τ).loc b) :=
  (keepH5 m ρ c b h.2.2.2.2.2.2.2.2.2.1).trans (at9 m ρ c b h)

/-! ## The bias rows -/

/-- The reshape before region 1 leaves the bias vector laid out as one row. -/
theorem bias1 : W2 m ρ c (Proc.devRef .tc main_v1) = row (m ((c : Thread nD τ).loc main_arg4)) := by
  have e : W2 m ρ c (Proc.devRef .tc main_v1)
      = shapeCast S1x128 (W1 m ρ c (Proc.devRef .tc main_arg4)) shapeCasts_S128_S1x128 := by
    show StableHlo.after hostOps1 (W1 m ρ c) (Proc.devRef .tc main_v1) = _
    after_results
    rfl
  rw [e, at1 m ρ c main_arg4 (by decide)]
  exact shapeCast_row _ _

/-- The reshape before region 2 leaves the bias vector laid out as one row. -/
theorem bias2 : W4 m ρ c (Proc.devRef .tc main_v3) = row (m ((c : Thread nD τ).loc main_arg6)) := by
  have e : W4 m ρ c (Proc.devRef .tc main_v3)
      = shapeCast S1x16 (W3 m ρ c (Proc.devRef .tc main_arg6)) shapeCasts_S16_S1x16 := by
    show StableHlo.after hostOps2 (W3 m ρ c) (Proc.devRef .tc main_v3) = _
    after_results
    rfl
  rw [e, at3 m ρ c main_arg6 (by decide)]
  exact shapeCast_row _ _

/-- The reshape before region 3 leaves the bias vector laid out as one row. -/
theorem bias3 : W6 m ρ c (Proc.devRef .tc main_v5) = row (m ((c : Thread nD τ).loc main_arg8)) := by
  have e : W6 m ρ c (Proc.devRef .tc main_v5)
      = shapeCast S1x256 (W5 m ρ c (Proc.devRef .tc main_arg8)) shapeCasts_S256_S1x256 := by
    show StableHlo.after hostOps3 (W5 m ρ c) (Proc.devRef .tc main_v5) = _
    after_results
    rfl
  rw [e, at5 m ρ c main_arg8 (by decide)]
  exact shapeCast_row _ _

/-- The reshape before region 4 leaves the bias vector laid out as one row. -/
theorem bias4 : W8 m ρ c (Proc.devRef .tc main_v7) = row (m ((c : Thread nD τ).loc main_arg4)) := by
  have e : W8 m ρ c (Proc.devRef .tc main_v7)
      = shapeCast S1x128 (W7 m ρ c (Proc.devRef .tc main_arg4)) shapeCasts_S128_S1x128 := by
    show StableHlo.after hostOps4 (W7 m ρ c) (Proc.devRef .tc main_v7) = _
    after_results
    rfl
  rw [e, at7 m ρ c main_arg4 (by decide)]
  exact shapeCast_row _ _

/-- The reshape before region 5 leaves the bias vector laid out as one row. -/
theorem bias5 : W10 m ρ c (Proc.devRef .tc main_v9) = row (m ((c : Thread nD τ).loc main_arg6)) := by
  have e : W10 m ρ c (Proc.devRef .tc main_v9)
      = shapeCast S1x16 (W9 m ρ c (Proc.devRef .tc main_arg6)) shapeCasts_S16_S1x16 := by
    show StableHlo.after hostOps5 (W9 m ρ c) (Proc.devRef .tc main_v9) = _
    after_results
    rfl
  rw [e, at9 m ρ c main_arg6 (by decide)]
  exact shapeCast_row _ _

/-! ## The output arrays, region by region -/

/-- After region 0: the features times the first layer's weights. -/
theorem out0 : W1 m ρ c (Proc.devRef .tc main_v0) = mm (m ((c : Thread nD τ).loc main_arg0)) (m ((c : Thread nD τ).loc main_arg3)) :=
  (W1_arr m ρ c 2).trans (region0 (V0 m ρ) c)

/-- After region 1: the layer of the previous array, times the next layer's weights. -/
theorem out1 : W3 m ρ c (Proc.devRef .tc main_v2) = mm (act (m ((c : Thread nD τ).loc main_arg1)) (mm (m ((c : Thread nD τ).loc main_arg0)) (m ((c : Thread nD τ).loc main_arg3))) (row (m ((c : Thread nD τ).loc main_arg4)))) (m ((c : Thread nD τ).loc main_arg5)) := by
  have eA : V2 m ρ c main_arg1 = (m ((c : Thread nD τ).loc main_arg1)) := at2 m ρ c main_arg1 (by decide)
  have eS : V2 m ρ c main_v0 = mm (m ((c : Thread nD τ).loc main_arg0)) (m ((c : Thread nD τ).loc main_arg3)) :=
    (keepH1 m ρ c main_v0 (by decide)).trans (out0 m ρ c)
  have eB : V2 m ρ c main_v1 = row (m ((c : Thread nD τ).loc main_arg4)) := bias1 m ρ c
  have eW : V2 m ρ c main_arg5 = (m ((c : Thread nD τ).loc main_arg5)) := at2 m ρ c main_arg5 (by decide)
  have e := (W3_arr m ρ c 4).trans (region1 (V2 m ρ) c)
  rw [eA, eS, eB, eW] at e
  exact e

/-- After region 2: the layer of the previous array, times the next layer's weights. -/
theorem out2 : W5 m ρ c (Proc.devRef .tc main_v4) = mm (act (m ((c : Thread nD τ).loc main_arg1)) (mm (act (m ((c : Thread nD τ).loc main_arg1)) (mm (m ((c : Thread nD τ).loc main_arg0)) (m ((c : Thread nD τ).loc main_arg3))) (row (m ((c : Thread nD τ).loc main_arg4)))) (m ((c : Thread nD τ).loc main_arg5))) (row (m ((c : Thread nD τ).loc main_arg6)))) (m ((c : Thread nD τ).loc main_arg7)) := by
  have eA : V4 m ρ c main_arg1 = (m ((c : Thread nD τ).loc main_arg1)) := at4 m ρ c main_arg1 (by decide)
  have eS : V4 m ρ c main_v2 = mm (act (m ((c : Thread nD τ).loc main_arg1)) (mm (m ((c : Thread nD τ).loc main_arg0)) (m ((c : Thread nD τ).loc main_arg3))) (row (m ((c : Thread nD τ).loc main_arg4)))) (m ((c : Thread nD τ).loc main_arg5)) :=
    (keepH2 m ρ c main_v2 (by decide)).trans (out1 m ρ c)
  have eB : V4 m ρ c main_v3 = row (m ((c : Thread nD τ).loc main_arg6)) := bias2 m ρ c
  have eW : V4 m ρ c main_arg7 = (m ((c : Thread nD τ).loc main_arg7)) := at4 m ρ c main_arg7 (by decide)
  have e := (W5_arr m ρ c 4).trans (region2 (V4 m ρ) c)
  rw [eA, eS, eB, eW] at e
  exact e

/-- After region 3: the layer of the previous array, times the next layer's weights. -/
theorem out3 : W7 m ρ c (Proc.devRef .tc main_v6) = mm (act (m ((c : Thread nD τ).loc main_arg1)) (mm (act (m ((c : Thread nD τ).loc main_arg1)) (mm (act (m ((c : Thread nD τ).loc main_arg1)) (mm (m ((c : Thread nD τ).loc main_arg0)) (m ((c : Thread nD τ).loc main_arg3))) (row (m ((c : Thread nD τ).loc main_arg4)))) (m ((c : Thread nD τ).loc main_arg5))) (row (m ((c : Thread nD τ).loc main_arg6)))) (m ((c : Thread nD τ).loc main_arg7))) (row (m ((c : Thread nD τ).loc main_arg8)))) (m ((c : Thread nD τ).loc main_arg3)) := by
  have eA : V6 m ρ c main_arg1 = (m ((c : Thread nD τ).loc main_arg1)) := at6 m ρ c main_arg1 (by decide)
  have eS : V6 m ρ c main_v4 = mm (act (m ((c : Thread nD τ).loc main_arg1)) (mm (act (m ((c : Thread nD τ).loc main_arg1)) (mm (m ((c : Thread nD τ).loc main_arg0)) (m ((c : Thread nD τ).loc main_arg3))) (row (m ((c : Thread nD τ).loc main_arg4)))) (m ((c : Thread nD τ).loc main_arg5))) (row (m ((c : Thread nD τ).loc main_arg6)))) (m ((c : Thread nD τ).loc main_arg7)) :=
    (keepH3 m ρ c main_v4 (by decide)).trans (out2 m ρ c)
  have eB : V6 m ρ c main_v5 = row (m ((c : Thread nD τ).loc main_arg8)) := bias3 m ρ c
  have eW : V6 m ρ c main_arg3 = (m ((c : Thread nD τ).loc main_arg3)) := at6 m ρ c main_arg3 (by decide)
  have e := (W7_arr m ρ c 4).trans (region3 (V6 m ρ) c)
  rw [eA, eS, eB, eW] at e
  exact e

/-- After region 4: the layer of the previous array, times the next layer's weights. -/
theorem out4 : W9 m ρ c (Proc.devRef .tc main_v8) = mm (act (m ((c : Thread nD τ).loc main_arg2)) (mm (act (m ((c : Thread nD τ).loc main_arg1)) (mm (act (m ((c : Thread nD τ).loc main_arg1)) (mm (act (m ((c : Thread nD τ).loc main_arg1)) (mm (m ((c : Thread nD τ).loc main_arg0)) (m ((c : Thread nD τ).loc main_arg3))) (row (m ((c : Thread nD τ).loc main_arg4)))) (m ((c : Thread nD τ).loc main_arg5))) (row (m ((c : Thread nD τ).loc main_arg6)))) (m ((c : Thread nD τ).loc main_arg7))) (row (m ((c : Thread nD τ).loc main_arg8)))) (m ((c : Thread nD τ).loc main_arg3))) (row (m ((c : Thread nD τ).loc main_arg4)))) (m ((c : Thread nD τ).loc main_arg5)) := by
  have eA : V8 m ρ c main_arg2 = (m ((c : Thread nD τ).loc main_arg2)) := at8 m ρ c main_arg2 (by decide)
  have eS : V8 m ρ c main_v6 = mm (act (m ((c : Thread nD τ).loc main_arg1)) (mm (act (m ((c : Thread nD τ).loc main_arg1)) (mm (act (m ((c : Thread nD τ).loc main_arg1)) (mm (m ((c : Thread nD τ).loc main_arg0)) (m ((c : Thread nD τ).loc main_arg3))) (row (m ((c : Thread nD τ).loc main_arg4)))) (m ((c : Thread nD τ).loc main_arg5))) (row (m ((c : Thread nD τ).loc main_arg6)))) (m ((c : Thread nD τ).loc main_arg7))) (row (m ((c : Thread nD τ).loc main_arg8)))) (m ((c : Thread nD τ).loc main_arg3)) :=
    (keepH4 m ρ c main_v6 (by decide)).trans (out3 m ρ c)
  have eB : V8 m ρ c main_v7 = row (m ((c : Thread nD τ).loc main_arg4)) := bias4 m ρ c
  have eW : V8 m ρ c main_arg5 = (m ((c : Thread nD τ).loc main_arg5)) := at8 m ρ c main_arg5 (by decide)
  have e := (W9_arr m ρ c 4).trans (region4 (V8 m ρ) c)
  rw [eA, eS, eB, eW] at e
  exact e

/-- After region 5: the last layer. -/
theorem out5 : W11 m ρ c (Proc.devRef .tc main_v10) = act (m ((c : Thread nD τ).loc main_arg2)) (mm (act (m ((c : Thread nD τ).loc main_arg2)) (mm (act (m ((c : Thread nD τ).loc main_arg1)) (mm (act (m ((c : Thread nD τ).loc main_arg1)) (mm (act (m ((c : Thread nD τ).loc main_arg1)) (mm (m ((c : Thread nD τ).loc main_arg0)) (m ((c : Thread nD τ).loc main_arg3))) (row (m ((c : Thread nD τ).loc main_arg4)))) (m ((c : Thread nD τ).loc main_arg5))) (row (m ((c : Thread nD τ).loc main_arg6)))) (m ((c : Thread nD τ).loc main_arg7))) (row (m ((c : Thread nD τ).loc main_arg8)))) (m ((c : Thread nD τ).loc main_arg3))) (row (m ((c : Thread nD τ).loc main_arg4)))) (m ((c : Thread nD τ).loc main_arg5))) (row (m ((c : Thread nD τ).loc main_arg6))) := by
  have eA : V10 m ρ c main_arg2 = (m ((c : Thread nD τ).loc main_arg2)) := at10 m ρ c main_arg2 (by decide)
  have eS : V10 m ρ c main_v8 = mm (act (m ((c : Thread nD τ).loc main_arg2)) (mm (act (m ((c : Thread nD τ).loc main_arg1)) (mm (act (m ((c : Thread nD τ).loc main_arg1)) (mm (act (m ((c : Thread nD τ).loc main_arg1)) (mm (m ((c : Thread nD τ).loc main_arg0)) (m ((c : Thread nD τ).loc main_arg3))) (row (m ((c : Thread nD τ).loc main_arg4)))) (m ((c : Thread nD τ).loc main_arg5))) (row (m ((c : Thread nD τ).loc main_arg6)))) (m ((c : Thread nD τ).loc main_arg7))) (row (m ((c : Thread nD τ).loc main_arg8)))) (m ((c : Thread nD τ).loc main_arg3))) (row (m ((c : Thread nD τ).loc main_arg4)))) (m ((c : Thread nD τ).loc main_arg5)) :=
    (keepH5 m ρ c main_v8 (by decide)).trans (out4 m ρ c)
  have eB : V10 m ρ c main_v9 = row (m ((c : Thread nD τ).loc main_arg6)) := bias5 m ρ c
  have e := (W11_arr m ρ c 3).trans (region5 (V10 m ρ) c)
  rw [eA, eS, eB] at e
  exact e

end Cert.KernelIdeal.Val

end
-- ==== Proof.RefValue.lean ====
/-
  The reference's result as a composition of dense layers.

  The reference computes five graph-convolution layers, each `relu (a (h w) + b)`: two host dot products, the bias vector
  broadcast to one row and then to every row, an addition, and a maximum with a broadcast scalar zero. At the ideal
  instance each host dot product is the matrix product `mm`, and the broadcast, addition and maximum are the rectified
  affine layer `act` with the bias laid out as one row; so the run's result term is `act` and `mm` composed, the next
  layer's weights multiplied in before the next adjacency product exactly as the reference's own parenthesization has it.
-/
import proofs.«146525_g77695958385290_cont_9to1_m_733_3_alg».proof.Proof.Gen.ReferenceIdeal.Run
import proofs.«146525_g77695958385290_cont_9to1_m_733_3_alg».proof.Proof.LibDense

set_option maxRecDepth 16384

noncomputable section

namespace Cert.ReferenceIdeal.RefValue

open Cert.ReferenceIdeal Cert.ReferenceIdeal.Gen Cert.Dense
open Idealize.ShloMosaic Idealize.ShloMosaic.TcCoe Idealize.ShloMosaic.ValueIdx Idealize.SL.Sem

/-- The five layers on the extended reals, as the reference parenthesizes them. -/
def result (x : Mat 10000 256) (adj A2 : Mat 10000 10000) (W1 : Mat 256 128) (b1 : Row 128) (W2 : Mat 128 16) (b2 : Row 16)
    (W3 : Mat 16 256) (b3 : Row 256) : Mat 10000 16 :=
  act A2 (mm (act A2 (mm (act adj (mm (act adj (mm (act adj (mm x W1) (row b1)) W2) (row b2)) W3) (row b3)) W1) (row b1)) W2)
    (row b2)

/-- The reference run's result term is `result` of the arguments. -/
theorem term_eq (x : FVec Ideal S10000x256 .f32) (adj A2 : FVec Ideal S10000x10000 .f32) (W1 : FVec Ideal S256x128 .f32)
    (b1 : FVec Ideal S128 .f32) (W2 : FVec Ideal S128x16 .f32) (b2 : FVec Ideal S16 .f32) (W3 : FVec Ideal S16x256 .f32)
    (b3 : FVec Ideal S256 .f32) :
    maximumf (addf (Host.dotGeneral dot_S10000x10000_S10000x16_S10000x16_1_0_0_1_n_n none A2 (Host.dotGeneral dot_S10000x128_S128x16_S10000x16_1_0_0_1_n_n none (maximumf (addf (Host.dotGeneral dot_S10000x10000_S10000x128_S10000x128_1_0_0_1_n_n none A2 (Host.dotGeneral dot_S10000x256_S256x128_S10000x128_1_0_0_1_n_n none (maximumf (addf (Host.dotGeneral dot_S10000x10000_S10000x256_S10000x256_1_0_0_1_n_n none adj (Host.dotGeneral dot_S10000x16_S16x256_S10000x256_1_0_0_1_n_n none (maximumf (addf (Host.dotGeneral dot_S10000x10000_S10000x16_S10000x16_1_0_0_1_n_n none adj (Host.dotGeneral dot_S10000x128_S128x16_S10000x16_1_0_0_1_n_n none (maximumf (addf (Host.dotGeneral dot_S10000x10000_S10000x128_S10000x128_1_0_0_1_n_n none adj (Host.dotGeneral dot_S10000x256_S256x128_S10000x128_1_0_0_1_n_n none x W1)) (broadcastInDim S10000x128 ![0, 1] bcast_S1x128_S10000x128_0_1 (broadcastInDim S1x128 ![1] bcast_S128_S1x128_1 b1))) (broadcastInDim S10000x128 ![] bcast_S_S10000x128 (constant S_ .f32 0x00000000#32))) W2)) (broadcastInDim S10000x16 ![0, 1] bcast_S1x16_S10000x16_0_1 (broadcastInDim S1x16 ![1] bcast_S16_S1x16_1 b2))) (broadcastInDim S10000x16 ![] bcast_S_S10000x16 (constant S_ .f32 0x00000000#32))) W3)) (broadcastInDim S10000x256 ![0, 1] bcast_S1x256_S10000x256_0_1 (broadcastInDim S1x256 ![1] bcast_S256_S1x256_1 b3))) (broadcastInDim S10000x256 ![] bcast_S_S10000x256 (constant S_ .f32 0x00000000#32))) W1)) (broadcastInDim S10000x128 ![0, 1] bcast_S1x128_S10000x128_0_1 (broadcastInDim S1x128 ![1] bcast_S128_S1x128_1 b1))) (broadcastInDim S10000x128 ![] bcast_S_S10000x128 (constant S_ .f32 0x00000000#32))) W2)) (broadcastInDim S10000x16 ![0, 1] bcast_S1x16_S10000x16_0_1 (broadcastInDim S1x16 ![1] bcast_S16_S1x16_1 b2))) (broadcastInDim S10000x16 ![] bcast_S_S10000x16 (constant S_ .f32 0x00000000#32))
      = result x adj A2 W1 b1 W2 b2 W3 b3 := by
  rw [hostDot_eq_mm dot_S10000x256_S256x128_S10000x128_1_0_0_1_n_n rfl rfl rfl rfl rfl rfl,
    hostDot_eq_mm dot_S10000x10000_S10000x128_S10000x128_1_0_0_1_n_n rfl rfl rfl rfl rfl rfl, hostReluBias,
    hostDot_eq_mm dot_S10000x128_S128x16_S10000x16_1_0_0_1_n_n rfl rfl rfl rfl rfl rfl,
    hostDot_eq_mm dot_S10000x10000_S10000x16_S10000x16_1_0_0_1_n_n rfl rfl rfl rfl rfl rfl, hostReluBias,
    hostDot_eq_mm dot_S10000x16_S16x256_S10000x256_1_0_0_1_n_n rfl rfl rfl rfl rfl rfl,
    hostDot_eq_mm dot_S10000x10000_S10000x256_S10000x256_1_0_0_1_n_n rfl rfl rfl rfl rfl rfl, hostReluBias,
    hostDot_eq_mm dot_S10000x256_S256x128_S10000x128_1_0_0_1_n_n rfl rfl rfl rfl rfl rfl,
    hostDot_eq_mm dot_S10000x10000_S10000x128_S10000x128_1_0_0_1_n_n rfl rfl rfl rfl rfl rfl, hostReluBias,
    hostDot_eq_mm dot_S10000x128_S128x16_S10000x16_1_0_0_1_n_n rfl rfl rfl rfl rfl rfl,
    hostDot_eq_mm dot_S10000x10000_S10000x16_S10000x16_1_0_0_1_n_n rfl rfl rfl rfl rfl rfl, hostReluBias]
  rfl

end Cert.ReferenceIdeal.RefValue

end
-- ==== Proof.lean ====
/-
  The certificate's claim: a five-layer graph-convolution network, `h ↦ relu (a (h w) + b)` five times over two dense
  10000 × 10000 adjacency matrices, computed by six kernel regions against its plain reference.

  The kernel regroups the chain: the first region computes `x w₁`, and every later region computes one layer
  `relu (a s + b)` on strips of 400 rows of the adjacency and, except the last, multiplies the strip by the NEXT layer's
  weights before writing it back. The reference computes `h w` and then `a (h w) + b` layer by layer. Both are the same
  composition of matrix products and rectified affine layers — the kernel only moves each product `h w` into the region
  that produces `h` — so on the extended reals the two results are one function of the arguments, with no algebraic law
  needed beyond reading each dot product as its sum (the casts to bf16 are the identity there, a matmul into a zero
  accumulator and the host's dot product are the same sum). The precondition is not used for the values.

  The three frames are the generated ones (the reference's is its generated run with the result dropped); the idealization
  rewrote nothing, so `preserves` is trivial. For `algebraic`: the kernel's run with its result buffer read
  (KernelRun), that buffer as the network of the launch arguments (KernelChain over Region0 … Region5), and the reference's
  run term as the same network (RefValue).
-/
import proofs.«146525_g77695958385290_cont_9to1_m_733_3_alg».proof.Defs
import proofs.«146525_g77695958385290_cont_9to1_m_733_3_alg».proof.Proof.Gen.Kernel
import proofs.«146525_g77695958385290_cont_9to1_m_733_3_alg».proof.Proof.Gen.Kernel.Skeleton
import proofs.«146525_g77695958385290_cont_9to1_m_733_3_alg».proof.Proof.Gen.Kernel.Launch
import proofs.«146525_g77695958385290_cont_9to1_m_733_3_alg».proof.Proof.Gen.Kernel.Points
import proofs.«146525_g77695958385290_cont_9to1_m_733_3_alg».proof.Proof.Gen.Kernel.Frame
import proofs.«146525_g77695958385290_cont_9to1_m_733_3_alg».proof.Proof.Gen.KernelIdeal
import proofs.«146525_g77695958385290_cont_9to1_m_733_3_alg».proof.Proof.Gen.KernelIdeal.Skeleton
import proofs.«146525_g77695958385290_cont_9to1_m_733_3_alg».proof.Proof.Gen.KernelIdeal.Launch
import proofs.«146525_g77695958385290_cont_9to1_m_733_3_alg».proof.Proof.Gen.KernelIdeal.Points
import proofs.«146525_g77695958385290_cont_9to1_m_733_3_alg».proof.Proof.Gen.KernelIdeal.Frame
import proofs.«146525_g77695958385290_cont_9to1_m_733_3_alg».proof.Proof.Gen.ReferenceIdeal
import proofs.«146525_g77695958385290_cont_9to1_m_733_3_alg».proof.Proof.Gen.ReferenceIdeal.Run
import proofs.«146525_g77695958385290_cont_9to1_m_733_3_alg».proof.Proof.Gen.ReferenceIdeal.Read
import proofs.«146525_g77695958385290_cont_9to1_m_733_3_alg».proof.Proof.Gen.Pre_finite_inputs
import proofs.«146525_g77695958385290_cont_9to1_m_733_3_alg».proof.Proof.KernelRun
import proofs.«146525_g77695958385290_cont_9to1_m_733_3_alg».proof.Proof.KernelChain
import proofs.«146525_g77695958385290_cont_9to1_m_733_3_alg».proof.Proof.RefValue
import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the five-layer network of the arguments in their result buffer. -/
theorem algebraic : Cert.algebraic_KernelIdeal_ReferenceIdeal := by
  intro m ρ m' ρ' _ hagree
  refine ⟨fun c => Cert.ReferenceIdeal.RefValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Val.out5 m ρ c), (h c).2⟩)
      (Cert.KernelIdeal.Val.run_out (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact Cert.ReferenceIdeal.RefValue.term_eq _ _ _ _ _ _ _ _ _

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
